-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S16384x2048 : Shape := ⟨2, ![16384, 2048]⟩
abbrev S1x1 : Shape := ⟨2, ![1, 1]⟩
abbrev S_ : Shape := ⟨0, ![]⟩
abbrev S512x2048 : Shape := ⟨2, ![512, 2048]⟩
abbrev S2048 : Shape := ⟨1, ![2048]⟩
abbrev S1x2048 : Shape := ⟨2, ![1, 2048]⟩
abbrev S1 : Shape := ⟨1, ![1]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1, .f32⟩
  | .local _ .vmem, ⟨5, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v18 : BitVec 1 := Scalar.cmpi .eq arg0 c31_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  shapeCasts_S2048_S1x2048 : S2048.ShapeCasts S1x2048
  reduces_S1x2048_S1 : S1x2048.Reduces [1] S1
  shapeCasts_S1_S1x1 : S1.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x2048 : Shape := ⟨2, ![16384, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S16384x2048_S_d0_1 : S16384x2048.ReducesTo [0, 1] S_
  h_S_ : 0 < S_.numel

variable [Facts₀]

class Facts : Prop extends Facts₀ where

variable [Facts]
-- ==== Proof.Pieces.lean ====
/-
  What one run of the kernel body leaves behind, as values.

  The body keeps a running total in a one-entry scratch cell. At the first grid point it first stores zero into the
  cell; at every point it then reads the cell, adds this point's contribution (a function of the two input blocks)
  and stores the result back; at the last point it copies the cell into the one-entry output block.

  Writing `step x0 x1 acc` for "acc plus the contribution of blocks x0, x1" (the body's second store payload) and
  `zero` for the zero cell (its first store payload), the three control cases leave:
    first point    : the cell holds  step x0 x1 zero
    middle points  : the cell holds  step x0 x1 acc     (acc = what the point before left)
    last point     : the cell and the output block both hold  step x0 x1 acc.
  These hold for any float instance; nothing here uses arithmetic.
-/
import proofs.«165872_j39642548142693_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a rank-two block. -/
theorem origin : (![0, 0] : Fin 2 → Nat) = fun _ => 0 := funext fun a => by fin_cases a <;> rfl

/-- Middle points: the cell ends at the old total plus this point's contribution. -/
theorem cell_mid (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S512x2048 .f32) (acc : Vec F S1x1 .f32) :
    sout0_B_0 c i a1 h1 a2 h2 a3 h3 a4 h4 hc0 hc1 x0 x1 acc = k0_pay2 x0 x1 x1 acc := by
  unfold sout0_B_0
  rw [View.read_writes_eq_canon _ _ _ (scover0_B_0 c i a1 h1 a2 h2 a3 h3 a4 h4 hc0 hc1 x0 x1 acc)]
  unfold kernelRun0_B
  dsimp only
  rw [View.canon_unit_zero origin]
  simp only [View.readAt_eq_ld, h1.read_unread, h2.read_unread, h4.read_unread, View.ld_unit_zero (S := S512x2048) origin,
    View.ld_unit_zero (S := S1x1) origin]

/-- First point: the cell is zeroed, read back, and ends at zero plus this point's contribution. -/
theorem cell_first (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S512x2048 .f32) :
    sout0_A_0 c i a1 h1 a2 h2 a3 h3 a4 h4 hc0 hc1 x0 x1 = k0_pay2 x0 x1 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S512x2048) origin]

/-- Last point: the cell ends at the old total plus this point's contribution, -/
theorem cell_last (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S512x2048 .f32) (acc : Vec F S1x1 .f32) :
    sout0_C_0 c i a1 h1 a2 h2 a3 h3 a4 h4 hc0 hc1 x0 x1 acc = k0_pay2 x0 x1 x1 acc := by
  unfold sout0_C_0
  rw [View.read_writes_eq_canon _ _ _ (scover0_C_0 c i a1 h1 a2 h2 a3 h3 a4 h4 hc0 hc1 x0 x1 acc)]
  unfold kernelRun0_C
  dsimp only
  sl_unfold_words
  rw [View.canon_unit_zero origin]
  simp only [View.readAt_eq_ld, h1.read_unread, h2.read_unread, h4.read_unread, View.ld_unit_zero (S := S512x2048) origin,
    View.ld_unit_zero (S := S1x1) origin]

/-- and the output block holds the same value: it is copied from the cell after the store. -/
theorem out_last (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S512x2048 .f32) (acc : Vec F S1x1 .f32) :
    out0_C_2 c i a1 h1 a2 h2 a3 h3 a4 h4 hc0 hc1 x0 x1 acc = k0_pay2 x0 x1 x1 acc := by
  unfold out0_C_2
  rw [View.read_writes_eq_canon _ _ _ (cover0_C_2 c i a1 h1 a2 h2 a3 h3 a4 h4 hc0 hc1 x0 x1 acc)]
  unfold kernelRun0_C
  dsimp only
  sl_unfold_words
  rw [View.canon_unit_zero origin, View.readCov_unit_zero (S := S1x1) _ origin]
  simp only [View.readAt_eq_ld, h1.read_unread, h2.read_unread, h4.read_unread, View.ld_unit_zero (S := S512x2048) origin,
    View.ld_unit_zero (S := S1x1) origin]

end Cert.KernelIdeal.Pieces

end
-- ==== Proof.Contribution.lean ====
/-
  One grid point's contribution, read as a number.

  A block is a 512 x 2048 array of rows r and lanes l. For two blocks p (predictions) and g (targets, also the
  divisor) the body forms, entry by entry, |p - g| / g, sums each lane over the 512 rows, then sums the 2048 lane
  totals, and adds the result to the running total held in a one-entry cell. On the extended reals every one of these
  steps is exact, so the new cell value is

      acc + sum over lanes l of ( sum over rows r of  |p(r,l) - g(r,l)| / g(r,l) ).

  Both reductions start from the zero word, which the exact reading of a sum ignores (it is the neutral element).
-/
import proofs.«165872_j39642548142693_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Contribution

open Cert.KernelIdeal Cert.KernelIdeal.Gen

/-- Summing a 512 x 2048 block over its rows leaves, at lane l, the sum over the rows of the entries in that lane. -/
theorem rows_summed (v : FVec Ideal S512x2048 .f32) (hφ : FKind.Formats .f32)
    (hacc : (0x00000000#32 : BitVec 32) = FKind.add.neutral .f32 hφ) (l : Fin 2048) :
    multiReduction .add [0] S2048 v 0x00000000#32 reduces_S512x2048_S2048 hφ hacc (ix1 l) = ∑ r : Fin 512, v (ix2 r l) := by
  refine (Ideal.multiReduction_add_single v 0x00000000#32 reduces_S512x2048_S2048 hφ hacc (ix1 l)).trans ?_
  refine Finset.sum_congr rfl fun r _ => congrArg v ?_
  funext a
  match a with
  | ⟨0, _⟩ => rfl
  | ⟨1, _⟩ => rfl

/-- Summing a 1 x 2048 row over its lanes leaves the sum of its 2048 entries. -/
theorem lanes_summed (v : FVec Ideal S1x2048 .f32) (hφ : FKind.Formats .f32)
    (hacc : (0x00000000#32 : BitVec 32) = FKind.add.neutral .f32 hφ) (u : Fin 1) :
    multiReduction .add [1] S1 v 0x00000000#32 reduces_S1x2048_S1 hφ hacc (ix1 u) = ∑ l : Fin 2048, v (ix2 u l) := by
  refine (Ideal.multiReduction_add_single v 0x00000000#32 reduces_S1x2048_S1 hφ hacc (ix1 u)).trans ?_
  refine Finset.sum_congr rfl fun l _ => congrArg v ?_
  funext a
  match a with
  | ⟨0, _⟩ => rfl
  | ⟨1, _⟩ => rfl

/-- The body's accumulate step at the cell's one index: the old total plus, lane by lane, the row sums of the
    entries' terms. The target block is loaded twice (once as subtrahend, once as divisor); both are g here. -/
theorem step_apply (p g g' : FVec Ideal S512x2048 .f32) (acc : FVec Ideal S1x1 .f32) (u w : Fin 1) :
    k0_pay2 (F := Ideal) p g g' acc (ix2 u w)
      = acc (ix2 u w) + ∑ l : Fin 2048, ∑ r : Fin 512, Ideal.div (max (p (ix2 r l) - g (ix2 r l)) (-(p (ix2 r l) - g (ix2 r l)))) (g' (ix2 r l)) := by
  unfold k0_pay2
  rw [shapeCast_self]
  refine (addf_apply _ _ _).trans ?_
  refine congrArg (acc (ix2 u w) + ·) ?_
  refine (shapeCast_a_1a_apply _ _ u w).trans ?_
  obtain rfl : w = 0 := Subsingleton.elim _ _
  refine (lanes_summed _ _ _ 0).trans ?_
  refine Finset.sum_congr rfl fun l _ => ?_
  refine (shapeCast_a_1a_apply _ _ 0 l).trans ?_
  refine (rows_summed _ _ _ l).trans ?_
  rfl

end Cert.KernelIdeal.Contribution

end
-- ==== Proof.Tail.lean ====
/-
  The two terms both programs share. First, one entry's term |p - g| / g. Second, the last step: the grand total, a single number, divided by the sample count 16384 (the same
  float word on both sides, so it is never evaluated). Kept as one function of the total so that the two sides are
  compared by comparing their totals only.
-/
import Idealize.ShloMosaic.PureOps.Ideal

noncomputable section

open Idealize.ShloMosaic

namespace Cert.Tail

/-- One entry's term: the absolute difference of prediction and target, divided by the target. On the extended
    reals the absolute value of x is the larger of x and -x. -/
def entry (p g : EReal) : EReal := Ideal.div (max (p - g) (-(p - g))) g

/-- A scalar result holding the total s divided by the sample-count word. -/
def meanOf (s : EReal) : (⟨0, ![]⟩ : Shape).Idx → EReal :=
  Host.divf (F := Ideal) (fun _ => s) (constant (F := Ideal) ⟨0, ![]⟩ .f32 0x46800000#32)

end Cert.Tail

end
-- ==== Proof.Accumulate.lean ====
/-
  The running total across the grid.

  The 32 grid points run in order. After point n the one-entry cell holds the contributions of blocks 0..n added up:
  the first point starts from zero, every later point adds its block's contribution to what the point before left.
  At the last point the output block receives a copy of the cell. Because addition on the extended reals is
  associative and zero is neutral, "((0 + b0) + b1) + ... + bn" is the plain sum of b0..bn.
-/
import proofs.«165872_j39642548142693_2_alg».proof.Proof.Pieces
import proofs.«165872_j39642548142693_2_alg».proof.Proof.Contribution
import proofs.«165872_j39642548142693_2_alg».proof.Proof.Tail

noncomputable section

open Idealize.ShloMosaic Idealize.ShloMosaic.TcCoe Idealize.SL.Sem Idealize.ShloMosaic.ValueIdx

namespace Cert.KernelIdeal.Accumulate

open Cert.KernelIdeal Cert.KernelIdeal.Gen Cert.KernelIdeal.Pieces Cert.KernelIdeal.Contribution Cert.Tail

/-! ## Point by point, for any float instance -/

section AnyInstance

variable {F : FTy → Type} [FloatOps F]
variable (m : (ℓ : Loc nD τ sig) → Buf (Elt F) ℓ)

/-- After the first point the cell holds the step applied to the zero cell. -/
theorem cell_at_first (c : Dev nD) (t : Fin cfg0.N) (h0 : t.val % 32 = 0) (h1 : ¬t.val % 32 = 31) :
    (outsAt0 m c t.val t.isLt).2 = k0_pay2 (iblk m c 0 t) (iblk m c 1 t) (iblk m c 1 t) (k0_pay1 (F := F)) := by
  rw [outsAt0_A m c t h0 h1]
  exact cell_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After any later point the cell holds the step applied to what the point before left. -/
theorem cell_after (c : Dev nD) (n : ℕ) (h : n + 1 < cfg0.N) :
    (outsAt0 m c (n + 1) h).2
      = k0_pay2 (iblk m c 0 ⟨n + 1, h⟩) (iblk m c 1 ⟨n + 1, h⟩) (iblk m c 1 ⟨n + 1, h⟩) (outsAt0 m c n (Nat.lt_of_succ_lt h)).2 := by
  have h0 : ¬(⟨n + 1, h⟩ : Fin cfg0.N).val % 32 = 0 := by
    have hN : n + 1 < 32 := lt_of_lt_of_eq h (show cfg0.N = 32 from N_0)
    dsimp only; omega
  by_cases h1 : (⟨n + 1, h⟩ : Fin cfg0.N).val % 32 = 31
  · rw [outsAt0_C m c ⟨n + 1, h⟩ h0 h1]
    exact cell_last c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh))
      ((hcond0_1 ⟨n + 1, h⟩).mpr h1) (iblk m c 0 ⟨n + 1, h⟩) (iblk m c 1 ⟨n + 1, h⟩) (outsAt0 m c n (Nat.lt_of_succ_lt h)).2
  · rw [outsAt0_B m c ⟨n + 1, h⟩ h0 h1]
    exact cell_mid c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh))
      (fun hh => h1 ((hcond0_1 ⟨n + 1, h⟩).mp hh)) (iblk m c 0 ⟨n + 1, h⟩) (iblk m c 1 ⟨n + 1, h⟩) (outsAt0 m c n (Nat.lt_of_succ_lt h)).2

/-- At the last point the output block ends holding what the cell holds. -/
theorem out_at_last (c : Dev nD) (t : Fin cfg0.N) (h0 : ¬t.val % 32 = 0) (h1 : t.val % 32 = 31) :
    (outsAt0 m c t.val t.isLt).1 = (outsAt0 m c t.val t.isLt).2 := by
  rw [outsAt0_C m c t h0 h1]
  exact (out_last c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2).trans
    (cell_last c (grid0.coords t) (ms0_0 t) (hs0_0 t) (ms0_1 t) (hs0_1 t) (ms0_2 t) (hs0_2 t) scM0_0
      (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2).symm

end AnyInstance

/-! ## The totals, on the extended reals -/

section Exact

variable (m : (ℓ : Loc nD τ sig) → Buf (Elt Ideal) ℓ)

/-- A pair of blocks' contribution: the entries' terms summed over the lanes and, within a lane, over the rows. -/
def blockSum (p g : FVec Ideal S512x2048 .f32) : EReal :=
  ∑ l : Fin 2048, ∑ r : Fin 512, entry (p (ix2 r l)) (g (ix2 r l))

/-- Grid point k's contribution (zero beyond the grid, so that sums over ranges of naturals make sense). -/
def part (c : Dev nD) (k : ℕ) : EReal :=
  if h : k < cfg0.N then blockSum (iblk m c 0 ⟨k, h⟩) (iblk m c 1 ⟨k, h⟩) else 0

theorem part_of_lt (c : Dev nD) (k : ℕ) (h : k < cfg0.N) :
    part m c k = blockSum (iblk m c 0 ⟨k, h⟩) (iblk m c 1 ⟨k, h⟩) := dif_pos h

/-- The step on a cell holding the number s leaves s plus the blocks' contribution. -/
theorem step_total (p g : FVec Ideal S512x2048 .f32) (acc : FVec Ideal S1x1 .f32) (s : EReal) (hacc : acc = fun _ => s) :
    k0_pay2 (F := Ideal) p g g acc = fun _ => s + blockSum p g := by
  funext j
  obtain ⟨u, w, rfl⟩ : ∃ u w : Fin 1, j = ix2 u w := ⟨j 0, j 1, eq_ix2 j⟩
  refine (step_apply p g g acc u w).trans ?_
  rw [hacc]
  rfl

/-- The zero cell holds the number zero. -/
theorem zero_cell : (k0_pay1 (F := Ideal)) = fun _ => (0 : EReal) := by
  funext j
  unfold k0_pay1
  rw [shapeCast_self]
  exact Ideal.ofBits_zero_f32

/-- After point n the cell holds the sum of the contributions of points 0..n. -/
theorem cell_total (c : Dev nD) : ∀ (n : ℕ) (h : n < cfg0.N),
    (outsAt0 m c n h).2 = fun _ => ∑ k ∈ Finset.range (n + 1), part m c k
  | 0, h => by
    refine (cell_at_first m c ⟨0, h⟩ (Nat.zero_mod _) (by dsimp only; omega)).trans ?_
    refine (step_total (iblk m c 0 ⟨0, h⟩) (iblk m c 1 ⟨0, h⟩) _ 0 zero_cell).trans ?_
    funext _
    rw [Finset.sum_range_one, zero_add, part_of_lt m c 0 h]
  | n + 1, h => by
    refine (cell_after m c n h).trans ?_
    refine (step_total (iblk m c 0 ⟨n + 1, h⟩) (iblk m c 1 ⟨n + 1, h⟩) _ _ (cell_total c n (Nat.lt_of_succ_lt h))).trans ?_
    funext _
    rw [Finset.sum_range_succ (fun k => part m c k) (n + 1), part_of_lt m c (n + 1) h]

/-- The grand total: all 32 points' contributions. -/
def total (c : Dev nD) : EReal := ∑ k ∈ Finset.range 32, part m c k

/-- After the last point the output block holds the grand total. -/
theorem out_total (c : Dev nD) (t : Fin cfg0.N) (h31 : t.val = 31) :
    (outsAt0 m c t.val t.isLt).1 = fun _ => total m c := by
  refine (out_at_last m c t (by omega) (by omega)).trans ?_
  refine (cell_total m c t.val t.isLt).trans ?_
  funext _
  unfold total
  rw [h31]

end Exact

end Cert.KernelIdeal.Accumulate

end
-- ==== Proof.KernelResult.lean ====
/-
  What the kernel's program returns, on the extended reals.

  The one-entry output array is written back once, after the last grid point, when its block holds the grand total of
  all 32 points' contributions; that single block is the whole array. The host then reads the entry as a scalar and
  divides it by the sample count.
-/
import proofs.«165872_j39642548142693_2_alg».proof.Proof.Accumulate
import proofs.«165872_j39642548142693_2_alg».proof.Proof.Tail
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accumulate

variable (m : (ℓ : Loc nD τ sig) → Buf (Elt Ideal) ℓ) (ρ : Dev nD → PrngReg)

/-- The output array after the region: its one entry is the grand total. -/
abbrev outArr (c : Dev nD) : Buf (Elt Ideal) ((c : Thread nD τ).loc main_call0_v0) := fun _ => total m c

/-- The last grid point. -/
abbrev lastPt : Fin cfg0.N := ⟨31, by rw [show cfg0.N = 32 from N_0]; decide⟩

/-- The one write-back, after the last point, writes the grand total. -/
theorem flushed_eq (c : Dev nD) (t : Fin cfg0.N) (hf : (cfg0.win 2).flush t = true) :
    (dats m 0 c).flushed 2 t = ((cfg0.win 2).blk t).view.read (Elt Ideal) (outArr m c) := by
  have h31 : t.val = 31 := by
    have h := (flush0_2 t).mp hf
    have hN : t.val < 32 := lt_of_lt_of_eq t.isLt (show cfg0.N = 32 from N_0)
    omega
  show (cfg0.win 2).cut (grid0.coords t) ((dats m 0 c).after 2 t) = _
  rw [after0_2, out_total m c t h31]
  funext y
  rfl

/-- That one block is the whole one-entry array, so the array ends holding the grand total. -/
theorem outArr_final (c : Dev nD) : (dats m 0 c).arrAt 2 cfg0.N = outArr m c :=
  (dats m 0 c).arrAt_eq_of_cover 2 (outArr m c) (flushed_eq m c) fun i =>
    ⟨lastPt, (flush0_2 lastPt).mpr rfl, by
      show i ∈ ((View.whole main_call0_v0).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPt 0 * win0_2.size 0 ≤ (i 0 : Nat) ∧ (i 0 : Nat) < win0_2.index lastPt 0 * win0_2.size 0 + win0_2.xsize (grid0.coords lastPt) 0
        rw [show win0_2.index lastPt 0 * win0_2.size 0 = 0 from by decide +kernel, show win0_2.xsize (grid0.coords lastPt) 0 = 1 from by decide +kernel]; omega
      | ⟨1, _⟩ =>
        show win0_2.index lastPt 1 * win0_2.size 1 ≤ (i 1 : Nat) ∧ (i 1 : Nat) < win0_2.index lastPt 1 * win0_2.size 1 + win0_2.xsize (grid0.coords lastPt) 1
        rw [show win0_2.index lastPt 1 * win0_2.size 1 = 0 from by decide +kernel, show win0_2.xsize (grid0.coords lastPt) 1 = 1 from by decide +kernel]; omega⟩

/-- After the host's last two lines the program's result is the grand total divided by the sample count. -/
theorem result_eq (c : Dev nD) :
    Pipeline.afterTail₀ cfgs (dats m) 0 (V0 m) [hostOps1] c main_v0 = Cert.Tail.meanOf (total m c) := by
  unfold Pipeline.afterTail₀
  show StableHlo.after hostOps1 _ (Proc.devRef .tc main_v0) = _
  after_results
  have hw : Pipeline.withArrays (cfgs 0).spec c (V0 m c) (fun w => (dats m 0 c).arrAt w (cfgs 0).N)
      (Proc.devRef .tc main_call0_v0) = outArr m c :=
    (Pipeline.withArrays_arr spec0 launch0.win.arr_inj c _ _ 2).trans (outArr_final m c)
  show Host.divf (F := Ideal)
      (shapeCast S_ (Pipeline.withArrays (cfgs 0).spec c (V0 m c) (fun w => (dats m 0 c).arrAt w (cfgs 0).N)
        (Proc.devRef .tc main_call0_v0)) shapeCasts_S1x1_S_)
      (constant (F := Ideal) S_ .f32 0x46800000#32) = _
  rw [hw]
  rfl

/-- The kernel's program, run: every weakly fair execution ends with the result at the grand total divided by the
    sample count, and both arguments as they were. -/
theorem run : θ_run defs (onTc (τ := τ) (main (F := Ideal))) ⟨m, fun _ => 0, ρ⟩ fun r => ∀ c : Dev nD,
      r.2.mem ((c.tc : Thread nD τ).loc main_v0) = Cert.Tail.meanOf (total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (by decide)).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Result

end
-- ==== Proof.RefResult.lean ====
/-
  What the reference returns, on the extended reals: it forms |p - g| / g for every entry of the two 16384 x 2048
  arguments, sums all of them starting from zero, and divides the sum by the sample count. Read one operation at a
  time, that is the shared last step applied to the plain sum of the entries' terms.
-/
import proofs.«165872_j39642548142693_2_alg».proof.Proof.Gen.ReferenceIdeal.Read
import proofs.«165872_j39642548142693_2_alg».proof.Proof.Tail
import Idealize.ShloMosaic.PureOps.Ideal.Laws

noncomputable section

open Idealize.ShloMosaic

namespace Cert.ReferenceIdeal.RefResult

open Cert.ReferenceIdeal Cert.ReferenceIdeal.Gen Cert.ReferenceIdeal.Read Cert.Tail

/-- The reference's summed stage holds, at its one index, the sum of all entries' terms (the zero it starts from is
    neutral). -/
theorem summed (p g : (⟨S16384x2048, .f32⟩ : BufTy).Contents (Elt Ideal)) :
    val_main_v3 (F := Ideal) p g = fun _ => ∑ j : S16384x2048.Idx, entry (p j) (g j) := by
  funext i
  refine (val_main_v3_apply p g i).trans ?_
  refine (congrArg (· + ∑ j : S16384x2048.Idx, val_main_v2 (F := Ideal) p g j) Ideal.ofBits_zero_f32).trans ?_
  refine (zero_add _).trans ?_
  rfl

/-- So the reference's result is the shared last step applied to that sum. -/
theorem result_eq (p g : (⟨S16384x2048, .f32⟩ : BufTy).Contents (Elt Ideal)) :
    val_main_v4 (F := Ideal) p g = meanOf (∑ j : S16384x2048.Idx, entry (p j) (g j)) := by
  unfold val_main_v4
  rw [summed]
  rfl

end Cert.ReferenceIdeal.RefResult

end
-- ==== Proof.Blocks.lean ====
/-
  Where a block sits in its array.

  Both inputs are 16384 x 2048 arrays cut into 32 blocks of 512 full rows; at grid point t the kernel sees block t
  of each. So entry (r, l) of the block at point t is entry (512 t + r, l) of the array.
-/
import proofs.«165872_j39642548142693_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- At point t both inputs' block indices are (t, 0): block t of the rows, the one block of the lanes. -/
theorem block_index : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

/-- Entry (r, l) of the first input's block at point t is entry (512 t + r, l) of the first argument. -/
theorem pred_block_apply (c : Dev nD) (t : Fin cfg0.N) (r : Fin 512) (l : Fin 2048) (hr : 512 * t.val + r.val < 16384) :
    (iblk m c 0 t : Vec F S512x2048 .f32) (ix2 r l)
      = m ((c : Thread nD τ).loc main_arg0) (ix2 (⟨512 * t.val + r.val, hr⟩ : Fin 16384) l) := by
  unfold iblk
  rw [View.read_apply]
  show m ((c : Thread nD τ).loc main_arg0) _ = m ((c : Thread nD τ).loc main_arg0) _
  congr 1
  funext a
  apply Fin.ext
  match a with
  | ⟨0, _⟩ =>
    show win0_0.index t 0 * 512 + 1 * r.val = 512 * t.val + r.val
    rw [(block_index t).1]; omega
  | ⟨1, _⟩ =>
    show win0_0.index t 1 * 2048 + 1 * l.val = l.val
    rw [(block_index t).2.1]; omega

/-- Entry (r, l) of the second input's block at point t is entry (512 t + r, l) of the second argument. -/
theorem target_block_apply (c : Dev nD) (t : Fin cfg0.N) (r : Fin 512) (l : Fin 2048) (hr : 512 * t.val + r.val < 16384) :
    (iblk m c 1 t : Vec F S512x2048 .f32) (ix2 r l)
      = m ((c : Thread nD τ).loc main_arg1) (ix2 (⟨512 * t.val + r.val, hr⟩ : Fin 16384) l) := by
  unfold iblk
  rw [View.read_apply]
  show m ((c : Thread nD τ).loc main_arg1) _ = m ((c : Thread nD τ).loc main_arg1) _
  congr 1
  funext a
  apply Fin.ext
  match a with
  | ⟨0, _⟩ =>
    show win0_1.index t 0 * 512 + 1 * r.val = 512 * t.val + r.val
    rw [(block_index t).2.2.1]; omega
  | ⟨1, _⟩ =>
    show win0_1.index t 1 * 2048 + 1 * l.val = l.val
    rw [(block_index t).2.2.2]; omega

end Cert.KernelIdeal.Blocks

end
-- ==== Proof.SumLaw.lean ====
/-
  The one law that joins the two sides: a sum over all entries of a 16384 x 2048 array, taken in one go, equals the
  sum taken block of rows by block of rows — 32 blocks of 512 rows — each block summed lane by lane and, within a
  lane, row by row. Row i of the array is row r of block t exactly when i = 512 t + r, and (t, r) ↦ 512 t + r is a
  bijection from 32 x 512 pairs onto the 16384 rows. Only commutativity and associativity of addition are used, so the
  law holds in any commutative monoid; on the extended reals this means no finiteness is needed.
-/
import Mathlib.Algebra.BigOperators.Fin
import Mathlib.Logic.Equiv.Fin.Basic
import Idealize.ShloMosaic.Lib.ValueIdx

open Idealize.ShloMosaic Idealize.ShloMosaic.ValueIdx

namespace Cert.SumLaw

/-- Rows regrouped: a sum over 16384 rows is the sum over 32 blocks of the sums over each block's 512 rows. -/
theorem sum_rows_by_blocks {M : Type*} [AddCommMonoid M] (g : Fin 16384 → M) :
    ∑ i : Fin 16384, g i
      = ∑ t : Fin 32, ∑ r : Fin 512, g ⟨512 * t.val + r.val, by have := t.isLt; have := r.isLt; omega⟩ := by
  have e := Equiv.sum_comp (finProdFinEquiv (m := 32) (n := 512)) (fun i : Fin (32 * 512) => g i)
  rw [Fintype.sum_prod_type] at e
  refine e.symm.trans ?_
  refine Finset.sum_congr rfl fun t _ => Finset.sum_congr rfl fun r _ => congrArg g (Fin.ext ?_)
  show r.val + 512 * t.val = 512 * t.val + r.val
  omega

/-- The whole law, over the index type of a rank-two array: all entries at once, against block by block, lane by
    lane, row by row. -/
theorem sum_all_by_blocks {M : Type*} [AddCommMonoid M] (f : (⟨2, ![16384, 2048]⟩ : Shape).Idx → M) :
    ∑ j, f j
      = ∑ t : Fin 32, ∑ l : Fin 2048, ∑ r : Fin 512,
          f (ix2 (⟨512 * t.val + r.val, by have := t.isLt; have := r.isLt; omega⟩ : Fin 16384) l) := by
  rw [sum_idx2, sum_rows_by_blocks]
  exact Finset.sum_congr rfl fun t _ => Finset.sum_comm

end Cert.SumLaw
-- ==== Proof.Bridge.lean ====
/-
  The kernel's grand total is the sum over all entries.

  Point t contributes the terms of rows 512 t .. 512 t + 511 of the two arguments (its blocks are exactly those
  rows), summed lane by lane and row by row. Adding the 32 points' contributions is therefore the sum over every entry
  of the arrays, regrouped — equal to the sum taken in one go by commutativity and associativity alone.
-/
import proofs.«165872_j39642548142693_2_alg».proof.Proof.Accumulate
import proofs.«165872_j39642548142693_2_alg».proof.Proof.Blocks
import proofs.«165872_j39642548142693_2_alg».proof.Proof.SumLaw

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Accumulate Cert.KernelIdeal.Blocks Cert.Tail

variable (m : (ℓ : Loc nD τ sig) → Buf (Elt Ideal) ℓ)

/-- Point t's contribution, over the arguments themselves: rows 512 t .. 512 t + 511, lane by lane. -/
theorem part_eq (c : Dev nD) (t : Fin 32) :
    part m c t.val
      = ∑ l : Fin 2048, ∑ r : Fin 512,
          entry (m ((c : Thread nD τ).loc main_arg0) (ix2 (⟨512 * t.val + r.val, by have := t.isLt; have := r.isLt; omega⟩ : Fin 16384) l))
                (m ((c : Thread nD τ).loc main_arg1) (ix2 (⟨512 * t.val + r.val, by have := t.isLt; have := r.isLt; omega⟩ : Fin 16384) l)) := by
  have ht : t.val < cfg0.N := lt_of_lt_of_eq t.isLt (show 32 = cfg0.N from N_0.symm)
  refine (part_of_lt m c t.val ht).trans ?_
  unfold blockSum
  refine Finset.sum_congr rfl fun l _ => Finset.sum_congr rfl fun r _ => ?_
  exact congrArg₂ entry (pred_block_apply m c ⟨t.val, ht⟩ r l _) (target_block_apply m c ⟨t.val, ht⟩ r l _)

/-- The grand total is the sum of every entry's term. -/
theorem total_eq (c : Dev nD) :
    total m c = ∑ j : S16384x2048.Idx,
      entry (m ((c : Thread nD τ).loc main_arg0) j) (m ((c : Thread nD τ).loc main_arg1) j) := by
  unfold total
  rw [← Fin.sum_univ_eq_sum_range (fun k => part m c k) 32]
  refine (Finset.sum_congr rfl fun t _ => part_eq m c t).trans ?_
  exact (Cert.SumLaw.sum_all_by_blocks
    (fun j => entry (m ((c : Thread nD τ).loc main_arg0) j) (m ((c : Thread nD τ).loc main_arg1) j))).symm

end Cert.KernelIdeal.Bridge

end
-- ==== Proof.lean ====
/-
  The normalised absolute error of predictions p against targets g, both 16384 x 2048:

      ( sum over all entries of |p - g| / g ) / 16384.

  The kernel walks the rows in 32 blocks of 512. For each block it forms |p - g| / g entry by entry, sums every lane
  over the block's rows, sums the lane totals, and adds the result to a running total kept in a one-entry cell (set
  to zero at the first block). After the last block the total is copied to the one-entry output, which the host reads
  as a scalar and divides by 16384. The reference forms the same entries, sums them all at once starting from zero,
  and divides by the same 16384.

  On the extended reals every operation above is exact, the zero the sums start from is neutral, and addition is
  commutative and associative. So the kernel's total — blocks in order, lanes within a block, rows within a lane — is
  the reference's sum of the same terms in another grouping (row 512 t + r of the arrays is row r of block t), and the
  final division is the same function applied to equal numbers. No finiteness of the inputs is used: nothing is
  cancelled or distributed, only regrouped.

  The word-level kernel and its exact reading are the same program text (no rewrite was applied), so that claim is
  trivial. Each program runs to completion leaving its arguments untouched.
-/
import proofs.«165872_j39642548142693_2_alg».proof.Defs
import proofs.«165872_j39642548142693_2_alg».proof.Proof.Gen.Kernel
import proofs.«165872_j39642548142693_2_alg».proof.Proof.Gen.Kernel.Skeleton
import proofs.«165872_j39642548142693_2_alg».proof.Proof.Gen.Kernel.Launch
import proofs.«165872_j39642548142693_2_alg».proof.Proof.Gen.Kernel.Points
import proofs.«165872_j39642548142693_2_alg».proof.Proof.Gen.Kernel.Frame
import proofs.«165872_j39642548142693_2_alg».proof.Proof.Gen.KernelIdeal
import proofs.«165872_j39642548142693_2_alg».proof.Proof.Gen.KernelIdeal.Skeleton
import proofs.«165872_j39642548142693_2_alg».proof.Proof.Gen.KernelIdeal.Launch
import proofs.«165872_j39642548142693_2_alg».proof.Proof.Gen.KernelIdeal.Points
import proofs.«165872_j39642548142693_2_alg».proof.Proof.Gen.KernelIdeal.Frame
import proofs.«165872_j39642548142693_2_alg».proof.Proof.Gen.ReferenceIdeal
import proofs.«165872_j39642548142693_2_alg».proof.Proof.Gen.ReferenceIdeal.Run
import proofs.«165872_j39642548142693_2_alg».proof.Proof.Gen.ReferenceIdeal.Read
import proofs.«165872_j39642548142693_2_alg».proof.Proof.Gen.Pre_finite_inputs
import proofs.«165872_j39642548142693_2_alg».proof.Proof.KernelResult
import proofs.«165872_j39642548142693_2_alg».proof.Proof.RefResult
import proofs.«165872_j39642548142693_2_alg».proof.Proof.Bridge
import Idealize.ShloMosaic.Adequacy
import Idealize.ShloMosaic.Init

noncomputable section

namespace Cert.Proof

open Idealize.ShloMosaic Idealize.SL.Sem

/-- The word-level kernel runs to completion and leaves its arguments unchanged. -/
theorem frame_kernel : Cert.frame_Kernel := fun m ρ _ => Cert.Kernel.Gen.frame m ρ

/-- So does its exact reading. -/
theorem frame_kernel_exact : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for its exact reading. -/
theorem preserves : Cert.preserves_Kernel_KernelIdeal := trivial

/-- On the extended reals the kernel's result — the 32 blocks' contributions added up, divided by the sample count —
    and the reference's — all entries summed at once, divided by the sample count — are equal whenever the two
    programs are given the same arguments: the two sums are one sum regrouped. -/
theorem algebraic : Cert.algebraic_KernelIdeal_ReferenceIdeal := by
  intro m ρ m' ρ' _ hagree
  refine ⟨fun c => Cert.Tail.meanOf (Cert.KernelIdeal.Accumulate.total m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefResult.result_eq, (hagree c).1, (hagree c).2]
  show _ = Cert.Tail.meanOf (Cert.KernelIdeal.Accumulate.total m c)
  rw [Cert.KernelIdeal.Bridge.total_eq]

theorem claim : Cert.Claim :=
  ⟨Cert.Kernel.Gen.facts, Cert.KernelIdeal.Gen.facts, Cert.ReferenceIdeal.Gen.facts, Cert.Pre_finite_inputs.Gen.facts,
    frame_kernel, frame_kernel_exact, frame_reference, preserves, algebraic⟩

end Cert.Proof

end
